-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x16384 .f32) (main_arg2 : FVec F S16384 .f32) (main_arg3 : FVec F S16384x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_v13 main_v16
-- ==== Kernel.lean ====
abbrev S4x2048x4096 : Shape := ⟨3, ![4, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S8192x4096 : Shape := ⟨2, ![8192, 4096]⟩
abbrev S1x16384 : Shape := ⟨2, ![1, 16384]⟩
abbrev S1x4096 : Shape := ⟨2, ![1, 4096]⟩
abbrev S512x4096 : Shape := ⟨2, ![512, 4096]⟩
abbrev S4096x256 : Shape := ⟨2, ![4096, 256]⟩
abbrev S1x256 : Shape := ⟨2, ![1, 256]⟩
abbrev S256x4096 : Shape := ⟨2, ![256, 4096]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x16384, .bf16⟩
  | .hbm, ⟨8, _⟩ => ⟨S16384x4096, .bf16⟩
  | .hbm, ⟨9, _⟩ => ⟨S1x16384, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S8192x4096_S4x2048x4096 : S8192x4096.ShapeCasts S4x2048x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x16384.size a
  hwx0_1 : ∀ i : grid0.Coords, EltTy.bits .bf16 = 32 ∨ (Rect.block (s := S4096x16384) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .bf16 = 32 ∨ (Rect.block (s := S16384x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S4x2048x16384 : Shape := ⟨3, ![4, 2048, 16384]⟩
abbrev S1x1x16384 : Shape := ⟨3, ![1, 1, 16384]⟩
abbrev S_ : Shape := ⟨0, ![]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4x2048x16384, .f32⟩
  | .hbm, ⟨6, _⟩ => ⟨S1x1x16384, .f32⟩
  | .hbm, ⟨7, _⟩ => ⟨S4x2048x16384, .f32⟩
  | .hbm, ⟨8, _⟩ => ⟨S4x2048x16384, .f32⟩
  | .hbm, ⟨9, _⟩ => ⟨S4x2048x16384, .f32⟩
  | .hbm, ⟨10, _⟩ => ⟨S4x2048x16384, .f32⟩
  | .hbm, ⟨11, _⟩ => ⟨S_, .f32⟩
  | .hbm, ⟨12, _⟩ => ⟨S4x2048x16384, .f32⟩
  | .hbm, ⟨13, _⟩ => ⟨S4x2048x16384, .f32⟩
  | .hbm, ⟨14, _⟩ => ⟨S4x2048x16384, .f32⟩
  | .hbm, ⟨15, _⟩ => ⟨S_, .f32⟩
  | .hbm, ⟨16, _⟩ => ⟨S4x2048x16384, .f32⟩
  | .hbm, ⟨17, _⟩ => ⟨S4x2048x16384, .f32⟩
  | .hbm, ⟨18, _⟩ => ⟨S4x2048x16384, .f32⟩
  | .hbm, ⟨19, _⟩ => ⟨S_, .f32⟩
  | .hbm, ⟨20, _⟩ => ⟨S4x2048x16384, .f32⟩
  | .hbm, ⟨21, _⟩ => ⟨S4x2048x16384, .f32⟩
  | .hbm, ⟨22, _⟩ => ⟨S_, .f32⟩
  | .hbm, ⟨23, _⟩ => ⟨S4x2048x16384, .f32⟩
  | .hbm, ⟨24, _⟩ => ⟨S4x2048x16384, .f32⟩
  | .hbm, ⟨25, _⟩ => ⟨S4x2048x16384, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  bcast_S_S4x2048x16384 : S_.BroadcastsInDim S4x2048x16384 (![] : Fin 0 → Fin S4x2048x16384.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x16384_S4x2048x16384_2_0_01_1_n_n_wf : DotDims.WF S4x2048x4096 S4096x16384 S4x2048x16384 [2] [0] [0, 1] [1] [] []
  dot_S4x2048x16384_S16384x4096_S4x2048x4096_2_0_01_1_n_n_wf : DotDims.WF S4x2048x16384 S16384x4096 S4x2048x4096 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf
def dot_S4x2048x16384_S16384x4096_S4x2048x4096_2_0_01_1_n_n : DotDims S4x2048x16384 S16384x4096 S4x2048x4096 where
  lhsContracting := [2]
  rhsContracting := [0]
  lhsNonContracting := [0, 1]
  rhsNonContracting := [1]
  lhsBatch := []
  rhsBatch := []
  wf := dot_S4x2048x16384_S16384x4096_S4x2048x4096_2_0_01_1_n_n_wf

class Facts : Prop extends Facts₀ where

variable [Facts]
-- ==== Proof.MlpCases.lean ====
/-
  What the body leaves in the output block's staging buffer, in each of its three control cases, as
  values of the buffers it was handed — for any float instance.

  First step of a row block (hidden tile 0): the accumulator is zeroed, then the step's sum is added to it.
  Middle steps: the step's sum is added to what the step before left. Last step (hidden tile 63): the
  same, and then the output bias is added.
-/
import proofs.«113697_j76270029243058_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

/-- The zero offsets of a whole-block access, as the constant function. -/
theorem hz : (![0, 0] : Fin 2 → Nat) = fun _ => 0 := funext fun a => by fin_cases a <;> rfl

/-- A middle step leaves the accumulating store's value over the running contents. -/
theorem out_B (c : Dev nD) (i : grid0.Coords) (a2 : Memref sig .tc .vmem S512x4096 .bf16) (h2 : a2.IsWhole)
    (a3 : Memref sig .tc .vmem S4096x256 .bf16) (h3 : a3.IsWhole) (a4 : Memref sig .tc .vmem S1x256 .f32) (h4 : a4.IsWhole)
    (a5 : Memref sig .tc .vmem S256x4096 .bf16) (h5 : a5.IsWhole) (a6 : Memref sig .tc .vmem S1x4096 .f32) (h6 : a6.IsWhole)
    (a7 : Memref sig .tc .vmem S512x4096 .f32) (h7 : a7.IsWhole)
    (hc0 : ¬cond0_0 i) (hc1 : ¬cond0_1 i) (x0 : Vec F S512x4096 .bf16) (x1 : Vec F S4096x256 .bf16) (x2 : Vec F S1x256 .f32) (x3 : Vec F S256x4096 .bf16)
    (x4 : Vec F S1x4096 .f32) (xo5 : Vec F S512x4096 .f32) :
    out0_B_5 c i a2 h2 a3 h3 a4 h4 a5 h5 a6 h6 a7 h7 hc0 hc1 x0 x1 x2 x3 x4 xo5 = k0_pay3 x0 x1 x2 x3 xo5 := by
  unfold out0_B_5
  rw [View.read_writes_eq_canon _ _ _ (cover0_B_5 c i a2 h2 a3 h3 a4 h4 a5 h5 a6 h6 a7 h7 hc0 hc1 x0 x1 x2 x3 x4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S512x4096) hz, View.ld_unit_zero (S := S4096x256) hz, View.ld_unit_zero (S := S1x256) hz,
    View.ld_unit_zero (S := S256x4096) hz, View.ld_unit_zero (S := S1x4096) hz]

/-- The first step of a row block leaves the accumulating store's value over the zero block. -/
theorem out_A (c : Dev nD) (i : grid0.Coords) (a2 : Memref sig .tc .vmem S512x4096 .bf16) (h2 : a2.IsWhole)
    (a3 : Memref sig .tc .vmem S4096x256 .bf16) (h3 : a3.IsWhole) (a4 : Memref sig .tc .vmem S1x256 .f32) (h4 : a4.IsWhole)
    (a5 : Memref sig .tc .vmem S256x4096 .bf16) (h5 : a5.IsWhole) (a6 : Memref sig .tc .vmem S1x4096 .f32) (h6 : a6.IsWhole)
    (a7 : Memref sig .tc .vmem S512x4096 .f32) (h7 : a7.IsWhole)
    (hc0 : cond0_0 i) (hc1 : ¬cond0_1 i) (x0 : Vec F S512x4096 .bf16) (x1 : Vec F S4096x256 .bf16) (x2 : Vec F S1x256 .f32) (x3 : Vec F S256x4096 .bf16)
    (x4 : Vec F S1x4096 .f32) :
    out0_A_5 c i a2 h2 a3 h3 a4 h4 a5 h5 a6 h6 a7 h7 hc0 hc1 x0 x1 x2 x3 x4 = k0_pay3 x0 x1 x2 x3 (k0_pay2 (F := F)) := by
  unfold out0_A_5
  rw [View.read_writes_eq_canon _ _ _ (cover0_A_5 c i a2 h2 a3 h3 a4 h4 a5 h5 a6 h6 a7 h7 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread, h6.read_unread, h7.read_unread,
    View.ld_unit_zero (S := S512x4096) hz, View.ld_unit_zero (S := S4096x256) hz, View.ld_unit_zero (S := S1x256) hz,
    View.ld_unit_zero (S := S256x4096) hz, View.ld_unit_zero (S := S1x4096) hz]

/-- The last step of a row block leaves the closing store's value: the accumulated sum plus the output bias. -/
theorem out_C (c : Dev nD) (i : grid0.Coords) (a2 : Memref sig .tc .vmem S512x4096 .bf16) (h2 : a2.IsWhole)
    (a3 : Memref sig .tc .vmem S4096x256 .bf16) (h3 : a3.IsWhole) (a4 : Memref sig .tc .vmem S1x256 .f32) (h4 : a4.IsWhole)
    (a5 : Memref sig .tc .vmem S256x4096 .bf16) (h5 : a5.IsWhole) (a6 : Memref sig .tc .vmem S1x4096 .f32) (h6 : a6.IsWhole)
    (a7 : Memref sig .tc .vmem S512x4096 .f32) (h7 : a7.IsWhole)
    (hc0 : ¬cond0_0 i) (hc1 : cond0_1 i) (x0 : Vec F S512x4096 .bf16) (x1 : Vec F S4096x256 .bf16) (x2 : Vec F S1x256 .f32) (x3 : Vec F S256x4096 .bf16)
    (x4 : Vec F S1x4096 .f32) (xo5 : Vec F S512x4096 .f32) :
    out0_C_5 c i a2 h2 a3 h3 a4 h4 a5 h5 a6 h6 a7 h7 hc0 hc1 x0 x1 x2 x3 x4 xo5 = k0_pay1 (k0_pay3 x0 x1 x2 x3 xo5) x4 := by
  unfold out0_C_5
  rw [View.read_writes_eq_canon _ _ _ (cover0_C_5 c i a2 h2 a3 h3 a4 h4 a5 h5 a6 h6 a7 h7 hc0 hc1 x0 x1 x2 x3 x4 xo5)]
  unfold kernelRun0_C
  dsimp only
  sl_unfold_words
  rw [View.canon_cons_unit_zero (S := S512x4096) hz, View.readCov_unit_zero (S := S512x4096) _ hz]
  simp only [View.readAt_eq_ld, h2.read_unread, h3.read_unread, h4.read_unread, h5.read_unread, h6.read_unread, h7.read_unread,
    View.ld_unit_zero (S := S512x4096) hz, View.ld_unit_zero (S := S4096x256) hz, View.ld_unit_zero (S := S1x256) hz,
    View.ld_unit_zero (S := S256x4096) hz, View.ld_unit_zero (S := S1x4096) hz]

end Cert.KernelIdeal.Cases

end
-- ==== Proof.LibHeadSum.lean ====
/-
  A contraction over a flattened (head, coordinate) index, head by head.

  An index e < H * D is h * D + d for a unique head h < H and coordinate d < D. A sum over e is
  therefore the sum over h of the sums over d, and that is what an accumulator reaches that starts
  at zero and adds one head's partial sum per step. Everything is stated in a commutative additive
  monoid; the extended reals are one (their + is total, commutative and associative), so no
  finiteness assumption is needed there.
-/
import Mathlib.Algebra.BigOperators.Fin
import Mathlib.Data.EReal.Operations

open scoped BigOperators

namespace Cert.Proof.HeadSum

variable {M : Type*} [AddCommMonoid M]

/-- The flattened index h * D + d is below H * D. -/
theorem flat_lt {H D : ℕ} (h : Fin H) (d : Fin D) : h.val * D + d.val < H * D :=
  Nat.lt_of_lt_of_le (Nat.add_lt_add_left d.isLt _)
    (by rw [← Nat.succ_mul]; exact Nat.mul_le_mul_right _ h.isLt)

/-- The flattened index of (head, coordinate): h * D + d, as an index below E = H * D. -/
def flat {H D E : ℕ} (hE : E = H * D) (h : Fin H) (d : Fin D) : Fin E :=
  ⟨h.val * D + d.val, hE ▸ flat_lt h d⟩

/-- Its value. -/
@[simp] theorem flat_val {H D E : ℕ} (hE : E = H * D) (h : Fin H) (d : Fin D) :
    (flat hE h d).val = h.val * D + d.val := rfl

/-- A sum over the flattened index is the sum over heads of the sums over coordinates. -/
theorem sum_flat {H D E : ℕ} (hE : E = H * D) (f : Fin E → M) :
    ∑ e, f e = ∑ h : Fin H, ∑ d : Fin D, f (flat hE h d) := by
  subst hE
  rw [← Fintype.sum_prod_type' (fun h d => f (flat rfl h d)), ← Equiv.sum_comp finProdFinEquiv]
  refine Finset.sum_congr rfl fun p _ => congrArg f (Fin.ext ?_)
  rw [finProdFinEquiv_apply_val, flat_val, Nat.mul_comm, Nat.add_comm]

/-- The accumulator after the first k of H heads: from zero, one head's term added per step. -/
def headAcc {H : ℕ} (g : Fin H → M) : ℕ → M
  | 0 => 0
  | k + 1 => if hk : k < H then headAcc g k + g ⟨k, hk⟩ else headAcc g k

/-- After k ≤ H steps the accumulator holds the terms of the heads below k. -/
theorem headAcc_eq {H : ℕ} (g : Fin H → M) (k : ℕ) (hk : k ≤ H) :
    headAcc g k = ∑ h ∈ Finset.univ.filter (fun h : Fin H => h.val < k), g h := by
  induction k with
  | zero => simp [headAcc]
  | succ k ih =>
    have hk' : k < H := hk
    have hset : (Finset.univ.filter fun h : Fin H => h.val < k + 1)
        = insert ⟨k, hk'⟩ (Finset.univ.filter fun h : Fin H => h.val < k) := by
      ext h
      simp only [Finset.mem_filter, Finset.mem_univ, true_and, Finset.mem_insert, Fin.ext_iff]
      omega
    rw [headAcc, dif_pos hk', ih hk'.le, hset, Finset.sum_insert (by simp), add_comm]

/-- After all H steps the accumulator holds the sum over every head. -/
theorem headAcc_all {H : ℕ} (g : Fin H → M) : headAcc g H = ∑ h, g h := by
  rw [headAcc_eq g H le_rfl]
  exact Finset.sum_congr (Finset.filter_true_of_mem fun h _ => h.isLt) fun _ _ => rfl

/-- The same accumulation given step by step: the value after k steps, each step adding head k's term. -/
inductive HeadRun {H : ℕ} (g : Fin H → M) : ℕ → M → Prop
  | zero : HeadRun g 0 0
  | succ {k : ℕ} {acc acc' : M} (hk : k < H) :
      HeadRun g k acc → acc' = acc + g ⟨k, hk⟩ → HeadRun g (k + 1) acc'

/-- A run of k ≤ H steps ends at the accumulator function's value. -/
theorem HeadRun.eq_headAcc {H : ℕ} {g : Fin H → M} {k : ℕ} {acc : M} (h : HeadRun g k acc) :
    acc = headAcc g k := by
  induction h with
  | zero => rfl
  | succ hk _ hstep ih => rw [hstep, ih, headAcc, dif_pos hk]

/-- A run of all H steps ends at the sum over every head. -/
theorem HeadRun.eq_sum {H : ℕ} {g : Fin H → M} {acc : M} (h : HeadRun g H acc) : acc = ∑ x, g x := by
  rw [h.eq_headAcc, headAcc_all]

/-- The contraction over the flattened index equals the accumulation, from zero over the H heads, of
    the contractions over the coordinates of one head. -/
theorem contraction_eq_headAcc {H D E : ℕ} (hE : E = H * D) [Mul M] (x w : Fin E → M) :
    ∑ e, x e * w e = headAcc (fun h : Fin H => ∑ d : Fin D, x (flat hE h d) * w (flat hE h d)) H := by
  rw [headAcc_all, sum_flat hE]

/-- The same for a step-by-step run. -/
theorem HeadRun.eq_contraction {H D E : ℕ} (hE : E = H * D) [Mul M] (x w : Fin E → M) {acc : M}
    (h : HeadRun (fun h : Fin H => ∑ d : Fin D, x (flat hE h d) * w (flat hE h d)) H acc) :
    acc = ∑ e, x e * w e := by
  rw [h.eq_sum, sum_flat hE]

/-- On the extended reals: the contraction over e < H * D is the head-by-head accumulation. -/
theorem ereal_contraction_eq_headAcc {H D E : ℕ} (hE : E = H * D) (x w : Fin E → EReal) :
    ∑ e, x e * w e = headAcc (fun h : Fin H => ∑ d : Fin D, x (flat hE h d) * w (flat hE h d)) H :=
  contraction_eq_headAcc hE x w

end Cert.Proof.HeadSum
-- ==== Proof.MlpSpec.lean ====
/-
  The mathematics of the fused two-layer perceptron on the extended reals.

  For a row r of the flattened input, a hidden column f and an output column d,
      pre(r, f) = (Σ_k x(r, k) · w1(k, f)) + b1(f),        h(r, f) = gelu (pre(r, f)),
      out(r, d) = (Σ_f h(r, f) · w2(f, d)) + b2(d),
  where gelu is the tanh approximation  p · (½ · (1 + tanh (c · (p + a · p³)))), its four constants
  kept as the binary words both programs spell. The 16384 hidden columns are 64 tiles of 256; the sum
  over f is the sum over tiles of the tiles' partial sums, which is what an accumulator reaches that
  starts at zero and adds one tile's partial sum per step. Nothing here needs a finite entry: only
  commutativity and associativity of + and · on the extended reals are used.
-/
import Idealize.ShloMosaic.PureOps.Ideal.Laws
import Idealize.ShloMosaic.Lib.ValueIdx
import proofs.«113697_j76270029243058_2_alg».proof.Proof.LibHeadSum

noncomputable section

open scoped BigOperators

namespace Cert.Mlp

open Idealize.ShloMosaic Idealize.ShloMosaic.ValueIdx Cert.Proof.HeadSum

/-- The tanh-approximate GELU of an extended real, the cube taken as p · (p · p). -/
def gelu (p : EReal) : EReal :=
  p * (Ideal.ofBits .f32 0x3F000000#32 * (Ideal.ofBits .f32 0x3F800000#32
    + Ideal.tanh (Ideal.ofBits .f32 0x3F4C422A#32 * (p + Ideal.ofBits .f32 0x3D372713#32 * (p * (p * p))))))

/-- The same with the cube taken as (p · p) · p: multiplication of extended reals commutes. -/
theorem gelu_cube_left (p : EReal) :
    p * (Ideal.ofBits .f32 0x3F000000#32 * (Ideal.ofBits .f32 0x3F800000#32
      + Ideal.tanh (Ideal.ofBits .f32 0x3F4C422A#32 * (p + Ideal.ofBits .f32 0x3D372713#32 * (p * p * p))))) = gelu p := by
  unfold gelu
  rw [mul_comm (p * p) p]

/-- 16384 hidden columns are 64 tiles of 256. -/
theorem hidden_tiles : 16384 = 64 * 256 := by norm_num

/-- Column e' of hidden tile s. -/
abbrev col (s : Fin 64) (e : Fin 256) : Fin 16384 := flat hidden_tiles s e

/-- The pre-activation of row r and hidden column f, over two-axis operands and a one-row bias. -/
def pre (X : (⟨2, ![8192, 4096]⟩ : Shape).Idx → EReal) (W1 : (⟨2, ![4096, 16384]⟩ : Shape).Idx → EReal)
    (B1 : (⟨2, ![1, 16384]⟩ : Shape).Idx → EReal) (r : Fin 8192) (f : Fin 16384) : EReal :=
  (∑ k : Fin 4096, X (ix2 r k) * W1 (ix2 k f)) + B1 (ix2 0 f)

/-- What hidden tile s contributes to out(r, d). -/
def tileTerm (X : (⟨2, ![8192, 4096]⟩ : Shape).Idx → EReal) (W1 : (⟨2, ![4096, 16384]⟩ : Shape).Idx → EReal)
    (B1 : (⟨2, ![1, 16384]⟩ : Shape).Idx → EReal) (W2 : (⟨2, ![16384, 4096]⟩ : Shape).Idx → EReal)
    (r : Fin 8192) (d : Fin 4096) (s : Fin 64) : EReal :=
  ∑ e : Fin 256, gelu (pre X W1 B1 r (col s e)) * W2 (ix2 (col s e) d)

/-- The whole layer at (r, d), over the flattened operands. -/
def out2 (X : (⟨2, ![8192, 4096]⟩ : Shape).Idx → EReal) (W1 : (⟨2, ![4096, 16384]⟩ : Shape).Idx → EReal)
    (B1 : (⟨2, ![1, 16384]⟩ : Shape).Idx → EReal) (W2 : (⟨2, ![16384, 4096]⟩ : Shape).Idx → EReal)
    (B2 : (⟨2, ![1, 4096]⟩ : Shape).Idx → EReal) : (⟨2, ![8192, 4096]⟩ : Shape).Idx → EReal := fun i =>
  (∑ f : Fin 16384, gelu (pre X W1 B1 (i 0) f) * W2 (ix2 f (i 1))) + B2 (ix2 0 (i 1))

/-- The accumulator after all 64 tiles holds the sum over every hidden column. -/
theorem headAcc_tiles (X : (⟨2, ![8192, 4096]⟩ : Shape).Idx → EReal) (W1 : (⟨2, ![4096, 16384]⟩ : Shape).Idx → EReal)
    (B1 : (⟨2, ![1, 16384]⟩ : Shape).Idx → EReal) (W2 : (⟨2, ![16384, 4096]⟩ : Shape).Idx → EReal)
    (r : Fin 8192) (d : Fin 4096) :
    headAcc (tileTerm X W1 B1 W2 r d) 64 = ∑ f : Fin 16384, gelu (pre X W1 B1 r f) * W2 (ix2 f d) := by
  rw [headAcc_all, sum_flat hidden_tiles]
  rfl

/-- One more step of the accumulator adds the next tile's term. -/
theorem headAcc_step {M : Type*} [AddCommMonoid M] {H : ℕ} (g : Fin H → M) (s : Fin H) :
    headAcc g (s.val + 1) = headAcc g s.val + g s := by
  rw [headAcc, dif_pos s.isLt]

/-- The first step, from the zero accumulator. -/
theorem headAcc_first {M : Type*} [AddCommMonoid M] {H : ℕ} (g : Fin H → M) (s : Fin H) (hs : s.val = 0) :
    headAcc g (s.val + 1) = 0 + g s := by
  rw [headAcc_step, hs]
  rfl

/-- A later step, from the accumulator of the steps before it. -/
theorem headAcc_next {M : Type*} [AddCommMonoid M] {H : ℕ} (g : Fin H → M) (s : Fin H) (k : ℕ) (hk : k = s.val) :
    headAcc g k + g s = headAcc g (s.val + 1) := by
  subst hk
  exact (headAcc_step g s).symm

/-- The last step reaches the accumulator of all H steps. -/
theorem headAcc_last {M : Type*} [AddCommMonoid M] {H : ℕ} (g : Fin H → M) (s : Fin H) (k : ℕ) (hk : k = s.val)
    (hl : s.val + 1 = H) : headAcc g k + g s = headAcc g H := by
  rw [headAcc_next g s k hk, hl]

/-- Before any step the accumulator is zero. -/
theorem headAcc_zero {M : Type*} [AddCommMonoid M] {H : ℕ} (g : Fin H → M) : headAcc g 0 = 0 := rfl

/-- The layer over the arguments as given: a [4, 2048, 4096] input, the two weight matrices, the two bias vectors. -/
def out3 (a0 : (⟨3, ![4, 2048, 4096]⟩ : Shape).Idx → EReal) (a1 : (⟨2, ![4096, 16384]⟩ : Shape).Idx → EReal)
    (a2 : (⟨1, ![16384]⟩ : Shape).Idx → EReal) (a3 : (⟨2, ![16384, 4096]⟩ : Shape).Idx → EReal)
    (a4 : (⟨1, ![4096]⟩ : Shape).Idx → EReal) : (⟨3, ![4, 2048, 4096]⟩ : Shape).Idx → EReal := fun i =>
  (∑ f : Fin 16384, gelu ((∑ k : Fin 4096, a0 (ix3 (i 0) (i 1) k) * a1 (ix2 k f)) + a2 (ix1 f)) * a3 (ix2 f (i 2)))
    + a4 (ix1 (i 2))

end Cert.Mlp

end
-- ==== Proof.MlpEntry.lean ====
/-
  The six arrays of the kernel region and the blocks a grid point sees, for any float instance.

  The region's operands are written by the host lines before it: the input flattened to [8192, 4096] and
  narrowed, the two weight matrices narrowed, the two biases viewed as one-row matrices. Grid point t is
  (row block t / 64, hidden tile t % 64): it sees rows 512·(t/64) … of x, columns 256·(t%64) … of w1 and of
  b1, rows 256·(t%64) … of w2, all of b2.
-/
import proofs.«113697_j76270029243058_2_alg».proof.Proof.Gen.KernelIdeal.Frame
import proofs.«113697_j76270029243058_2_alg».proof.Proof.MlpSpec
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the six windows at every grid point: (t/64, 0), (0, t%64), (0, t%64), (t%64, 0), (0, 0), (t/64, 0). -/
theorem idx_facts : ∀ t : Fin cfg0.N,
    (win0_0.index t 0 = t.val / 64 ∧ win0_0.index t 1 = 0) ∧ (win0_1.index t 0 = 0 ∧ win0_1.index t 1 = t.val % 64)
    ∧ (win0_2.index t 0 = 0 ∧ win0_2.index t 1 = t.val % 64) ∧ (win0_3.index t 0 = t.val % 64 ∧ win0_3.index t 1 = 0)
    ∧ (win0_4.index t 0 = 0 ∧ win0_4.index t 1 = 0) ∧ (win0_5.index t 0 = t.val / 64 ∧ win0_5.index t 1 = 0) :=
  (by decide +kernel : ∀ t : Fin grid0.N,
    (win0_0.index t 0 = t.val / 64 ∧ win0_0.index t 1 = 0) ∧ (win0_1.index t 0 = 0 ∧ win0_1.index t 1 = t.val % 64)
    ∧ (win0_2.index t 0 = 0 ∧ win0_2.index t 1 = t.val % 64) ∧ (win0_3.index t 0 = t.val % 64 ∧ win0_3.index t 1 = 0)
    ∧ (win0_4.index t 0 = 0 ∧ win0_4.index t 1 = 0) ∧ (win0_5.index t 0 = t.val / 64 ∧ win0_5.index t 1 = 0))

theorem lt_N (t : Fin cfg0.N) : t.val < 1024 := lt_of_lt_of_eq t.isLt (show cfg0.N = 1024 from N_0)

/-- Row p of grid point t's row block, as a row of the flattened input. -/
def rowOf (t : Fin cfg0.N) (p : Fin 512) : Fin 8192 :=
  ⟨512 * (t.val / 64) + p.val, by have := lt_N t; have := p.isLt; omega⟩

/-- Grid point t's hidden tile. -/
def tileOf (t : Fin cfg0.N) : Fin 64 := ⟨t.val % 64, Nat.mod_lt _ (by norm_num)⟩

/-- The block of x at point t reads rows 512·(t/64) + p. -/
theorem iblk0_apply (c : Dev nD) (t : Fin cfg0.N) (p : Fin 512) (k : Fin 4096) :
    (iblk m c 0 t : Vec F S512x4096 .bf16) (ix2 p k) = V m c main_v1 (ix2 (rowOf t p) k) := by
  have hi := (idx_facts t).1
  unfold iblk
  rw [View.read_apply]
  show V m c main_v1 _ = V m c main_v1 _
  congr 1
  funext a
  apply Fin.ext
  match a with
  | ⟨0, _⟩ => show win0_0.index t 0 * 512 + 1 * p.val = 512 * (t.val / 64) + p.val; rw [hi.1]; omega
  | ⟨1, _⟩ => show win0_0.index t 1 * 4096 + 1 * k.val = k.val; rw [hi.2]; omega

/-- The tile of w1 at point t reads columns 256·(t%64) + e. -/
theorem iblk1_apply (c : Dev nD) (t : Fin cfg0.N) (k : Fin 4096) (e : Fin 256) :
    (iblk m c 1 t : Vec F S4096x256 .bf16) (ix2 k e) = V m c main_v2 (ix2 k (Cert.Mlp.col (tileOf t) e)) := by
  have hi := (idx_facts t).2.1
  unfold iblk
  rw [View.read_apply]
  show V m c main_v2 _ = V m c main_v2 _
  congr 1
  funext a
  apply Fin.ext
  match a with
  | ⟨0, _⟩ => show win0_1.index t 0 * 4096 + 1 * k.val = k.val; rw [hi.1]; omega
  | ⟨1, _⟩ => show win0_1.index t 1 * 256 + 1 * e.val = t.val % 64 * 256 + e.val; rw [hi.2]; omega

/-- The piece of b1 at point t reads columns 256·(t%64) + e of its one row. -/
theorem iblk2_apply (c : Dev nD) (t : Fin cfg0.N) (e : Fin 256) :
    (iblk m c 2 t : Vec F S1x256 .f32) (ix2 0 e) = V m c main_v4 (ix2 0 (Cert.Mlp.col (tileOf t) e)) := by
  have hi := (idx_facts t).2.2.1
  unfold iblk
  rw [View.read_apply]
  show V m c main_v4 _ = V m c main_v4 _
  congr 1
  funext a
  apply Fin.ext
  match a with
  | ⟨0, _⟩ => show win0_2.index t 0 * 1 + 1 * 0 = 0; rw [hi.1]
  | ⟨1, _⟩ => show win0_2.index t 1 * 256 + 1 * e.val = t.val % 64 * 256 + e.val; rw [hi.2]; omega

/-- The tile of w2 at point t reads rows 256·(t%64) + e. -/
theorem iblk3_apply (c : Dev nD) (t : Fin cfg0.N) (e : Fin 256) (q : Fin 4096) :
    (iblk m c 3 t : Vec F S256x4096 .bf16) (ix2 e q) = V m c main_v3 (ix2 (Cert.Mlp.col (tileOf t) e) q) := by
  have hi := (idx_facts t).2.2.2.1
  unfold iblk
  rw [View.read_apply]
  show V m c main_v3 _ = V m c main_v3 _
  congr 1
  funext a
  apply Fin.ext
  match a with
  | ⟨0, _⟩ => show win0_3.index t 0 * 256 + 1 * e.val = t.val % 64 * 256 + e.val; rw [hi.1]; omega
  | ⟨1, _⟩ => show win0_3.index t 1 * 4096 + 1 * q.val = q.val; rw [hi.2]; omega

/-- The block of b2 at every point is all of its one row. -/
theorem iblk4_apply (c : Dev nD) (t : Fin cfg0.N) (q : Fin 4096) :
    (iblk m c 4 t : Vec F S1x4096 .f32) (ix2 0 q) = V m c main_v5 (ix2 0 q) := by
  have hi := (idx_facts t).2.2.2.2.1
  unfold iblk
  rw [View.read_apply]
  show V m c main_v5 _ = V m c main_v5 _
  congr 1
  funext a
  apply Fin.ext
  match a with
  | ⟨0, _⟩ => show win0_4.index t 0 * 1 + 1 * 0 = 0; rw [hi.1]
  | ⟨1, _⟩ => show win0_4.index t 1 * 4096 + 1 * q.val = q.val; rw [hi.2]; omega

/-- The first operand as the region finds it: the input flattened, then narrowed. -/
theorem V_main_v1 (c : Dev nD) : (V m c main_v1 : S8192x4096.Idx → Elt F .bf16)
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- The second: the first weight matrix narrowed. -/
theorem V_main_v2 (c : Dev nD) : (V m c main_v2 : S4096x16384.Idx → Elt F .bf16)
    = truncf .bf16 (m ((c : Thread nD τ).loc main_arg1)) bitsLt_bf16_f32 := by
  show StableHlo.after hostOps0 (fun b => m (c, b)) (Proc.devRef .tc main_v2) = _
  after_results

/-- The fourth: the second weight matrix narrowed. -/
theorem V_main_v3 (c : Dev nD) : (V m c main_v3 : S16384x4096.Idx → Elt F .bf16)
    = truncf .bf16 (m ((c : Thread nD τ).loc main_arg3)) bitsLt_bf16_f32 := by
  show StableHlo.after hostOps0 (fun b => m (c, b)) (Proc.devRef .tc main_v3) = _
  after_results

/-- The third: the first bias as a one-row matrix. -/
theorem V_main_v4 (c : Dev nD) : (V m c main_v4 : S1x16384.Idx → Elt F .f32)
    = shapeCast S1x16384 (m ((c : Thread nD τ).loc main_arg2)) shapeCasts_S16384_S1x16384 := by
  show StableHlo.after hostOps0 (fun b => m (c, b)) (Proc.devRef .tc main_v4) = _
  after_results
  rfl

/-- The fifth: the second bias as a one-row matrix. -/
theorem V_main_v5 (c : Dev nD) : (V m c main_v5 : S1x4096.Idx → Elt F .f32)
    = shapeCast S1x4096 (m ((c : Thread nD τ).loc main_arg4)) shapeCasts_S4096_S1x4096 := by
  show StableHlo.after hostOps0 (fun b => m (c, b)) (Proc.devRef .tc main_v5) = _
  after_results
  rfl

end Cert.KernelIdeal.Entry

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.MlpPayload.lean ====
/-
  The kernel body's three stored values, read at an element, on the extended reals.

  The body holds a [512, 4096] block of x, a [4096, 256] tile of w1, the matching [1, 256] piece of b1,
  a [256, 4096] tile of w2 and the running [512, 4096] accumulator. One step stores
      acc(p, q) + Σ_e gelu ((Σ_k x(p, k) · w1(k, e)) + b1(e)) · w2(e, q);
  the first step of a row block stores zero into the accumulator beforehand, the last one adds b2(q)
  afterwards. A change of float format is the identity here and a product into the zero accumulator is
  the plain sum of products.
-/
import proofs.«113697_j76270029243058_2_alg».proof.Proof.Gen.KernelIdeal.Skeleton
import proofs.«113697_j76270029243058_2_alg».proof.Proof.LibPlainDot
import proofs.«113697_j76270029243058_2_alg».proof.Proof.MlpSpec
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The first product's dimension numbers are those of a plain 512×4096 by 4096×256 product. -/
theorem dot1_eq : dot_S512x4096_S4096x256_S512x256_1_0_0_1_n_n = DotDims.plain 512 4096 256 := rfl
/-- The second product's are those of a plain 512×256 by 256×4096 product. -/
theorem dot2_eq : dot_S512x256_S256x4096_S512x4096_1_0_0_1_n_n = DotDims.plain 512 256 4096 := rfl

/-- The activation chain applied elementwise to a [512, 256] block is gelu of each entry. -/
theorem act_apply (u : FVec Ideal S512x256 .f32) (j : S512x256.Idx) :
    (mulf u (mulf (broadcast S512x256 (Scalar.ofBits (F := Ideal) .f32 0x3F000000#32))
      (addf (broadcast S512x256 (Scalar.ofBits (F := Ideal) .f32 0x3F800000#32))
        (tanh (mulf (broadcast S512x256 (Scalar.ofBits (F := Ideal) .f32 0x3F4C422A#32))
          (addf u (mulf (broadcast S512x256 (Scalar.ofBits (F := Ideal) .f32 0x3D372713#32)) (mulf u (mulf u u))))))))) j
      = Cert.Mlp.gelu (u j) := rfl

/-- A [1, 256] row broadcast down 512 rows reads the row's entry at the column. -/
theorem bias1_apply (v : FVec Ideal S1x256 .f32) (p : Fin 512) (e : Fin 256) :
    broadcastTo S512x256 v broadcasts_S1x256_S512x256 (ix2 p e) = v (ix2 0 e) :=
  broadcastTo_apply v _ (ix2 p e) (ix2 0 e) (fun a => by
    match a with
    | ⟨0, _⟩ => rfl
    | ⟨1, _⟩ => rfl)

/-- A [1, 4096] row broadcast down 512 rows reads the row's entry at the column. -/
theorem bias2_apply (v : FVec Ideal S1x4096 .f32) (p : Fin 512) (q : Fin 4096) :
    broadcastTo S512x4096 v broadcasts_S1x4096_S512x4096 (ix2 p q) = v (ix2 0 q) :=
  broadcastTo_apply v _ (ix2 p q) (ix2 0 q) (fun a => by
    match a with
    | ⟨0, _⟩ => rfl
    | ⟨1, _⟩ => rfl)

/-- The zero block the first step of a row block stores. -/
theorem pay2_apply (j : S512x4096.Idx) : k0_pay2 (F := Ideal) j = 0 := by
  show Ideal.ofBits .f32 0x00000000#32 = 0
  exact Ideal.ofBits_zero_f32

/-- The accumulating store, at (p, q). -/
theorem pay3_apply (v3 : Vec Ideal S512x4096 .bf16) (v5 : Vec Ideal S4096x256 .bf16) (v8 : Vec Ideal S1x256 .f32)
    (v26 : Vec Ideal S256x4096 .bf16) (v28 : Vec Ideal S512x4096 .f32) (p : Fin 512) (q : Fin 4096) :
    k0_pay3 (F := Ideal) v3 v5 v8 v26 v28 (ix2 p q)
      = v28 (ix2 p q) + ∑ e : Fin 256, Cert.Mlp.gelu ((∑ k : Fin 4096, v3 (ix2 p k) * v5 (ix2 k e)) + v8 (ix2 0 e)) * v26 (ix2 e q) := by
  unfold k0_pay3
  simp only [shapeCast_self, matmul]
  rw [addf_apply, dot2_eq, PlainDot.matmul_zero_apply]
  refine congrArg _ (Finset.sum_congr rfl fun e _ => ?_)
  rw [truncf_apply, act_apply, addf_apply, dot1_eq, PlainDot.matmul_zero_apply, bias1_apply]

/-- The accumulating store when the four input blocks are the pieces of the whole operands that belong to row r and
    hidden tile s: the running value plus that tile's term of out(r, q). -/
theorem pay3_tile (v3 : Vec Ideal S512x4096 .bf16) (v5 : Vec Ideal S4096x256 .bf16) (v8 : Vec Ideal S1x256 .f32)
    (v26 : Vec Ideal S256x4096 .bf16) (v28 : Vec Ideal S512x4096 .f32)
    (X : S8192x4096.Idx → EReal) (W1 : S4096x16384.Idx → EReal) (B1 : S1x16384.Idx → EReal) (W2 : S16384x4096.Idx → EReal)
    (r : Fin 8192) (s : Fin 64) (p : Fin 512) (q : Fin 4096)
    (h0 : ∀ k : Fin 4096, v3 (ix2 p k) = X (ix2 r k))
    (h1 : ∀ (k : Fin 4096) (e : Fin 256), v5 (ix2 k e) = W1 (ix2 k (Cert.Mlp.col s e)))
    (h2 : ∀ e : Fin 256, v8 (ix2 0 e) = B1 (ix2 0 (Cert.Mlp.col s e)))
    (h3 : ∀ e : Fin 256, v26 (ix2 e q) = W2 (ix2 (Cert.Mlp.col s e) q)) :
    k0_pay3 (F := Ideal) v3 v5 v8 v26 v28 (ix2 p q) = v28 (ix2 p q) + Cert.Mlp.tileTerm X W1 B1 W2 r q s := by
  rw [pay3_apply]
  unfold Cert.Mlp.tileTerm Cert.Mlp.pre
  refine congrArg _ (Finset.sum_congr rfl fun e _ => ?_)
  rw [h2 e, h3 e, Finset.sum_congr rfl fun k _ => by rw [h0 k, h1 k e]]

/-- The closing store, at (p, q): the accumulator plus the output bias. -/
theorem pay1_apply (v36 : Vec Ideal S512x4096 .f32) (v38 : Vec Ideal S1x4096 .f32) (p : Fin 512) (q : Fin 4096) :
    k0_pay1 (F := Ideal) v36 v38 (ix2 p q) = v36 (ix2 p q) + v38 (ix2 0 q) := by
  unfold k0_pay1
  simp only [shapeCast_self]
  rw [addf_apply, bias2_apply]

end Cert.KernelIdeal.Payload

end
-- ==== Proof.MlpAccum.lean ====
/-
  What the output block's staging buffer holds after every grid point, on the extended reals.

  Grid point t works on row block t / 64 and hidden tile t % 64. By induction on the point: after point t the
  buffer's entry (p, q) is the accumulator of out(r, q), r = 512·(t/64) + p, over hidden tiles 0 … t % 64 — and,
  after the last tile of the row block (t % 64 = 63), that accumulator plus the output bias b2(q), which is
  out(r, q) itself.
-/
import proofs.«113697_j76270029243058_2_alg».proof.Proof.MlpCases
import proofs.«113697_j76270029243058_2_alg».proof.Proof.MlpEntry
import proofs.«113697_j76270029243058_2_alg».proof.Proof.MlpPayload

noncomputable section

namespace Cert.KernelIdeal.Accum

open Cert.KernelIdeal Cert.KernelIdeal.Gen Idealize.ShloMosaic Idealize.ShloMosaic.TcCoe Idealize.SL.Sem
open Idealize.ShloMosaic.ValueIdx Cert.Proof.HeadSum Cert.KernelIdeal.Entry

variable (m : (ℓ : Loc nD τ sig) → Buf (Elt Ideal) ℓ)

/-- The 64 tile terms of out(r, q), over the operands as the region finds them. -/
def terms (c : Dev nD) (r : Fin 8192) (q : Fin 4096) : Fin 64 → EReal :=
  Cert.Mlp.tileTerm (V m c main_v1) (V m c main_v2) (V m c main_v4) (V m c main_v3) r q

/-- One accumulating store at point t adds the term of the point's hidden tile. -/
theorem step_apply (c : Dev nD) (t : Fin cfg0.N) (acc : Vec Ideal S512x4096 .f32) (p : Fin 512) (q : Fin 4096) :
    k0_pay3 (F := Ideal) (iblk m c 0 t) (iblk m c 1 t) (iblk m c 2 t) (iblk m c 3 t) acc (ix2 p q)
      = acc (ix2 p q) + terms m c (rowOf t p) q (tileOf t) :=
  Payload.pay3_tile (iblk m c 0 t) (iblk m c 1 t) (iblk m c 2 t) (iblk m c 3 t) acc
    (V m c main_v1) (V m c main_v2) (V m c main_v4) (V m c main_v3) (rowOf t p) (tileOf t) p q
    (fun k => iblk0_apply m c t p k) (fun k e => iblk1_apply m c t k e) (fun e => iblk2_apply m c t e)
    (fun e => iblk3_apply m c t e q)

/-- What the buffer's entry (p, q) is to hold after point t. -/
def accAfter (c : Dev nD) (t : Fin cfg0.N) (p : Fin 512) (q : Fin 4096) : EReal :=
  if t.val % 64 = 63 then headAcc (terms m c (rowOf t p) q) 64 + V m c main_v5 (ix2 0 q)
  else headAcc (terms m c (rowOf t p) q) (t.val % 64 + 1)

/-- Consecutive points of one row block address the same rows. -/
theorem rowOf_succ (n : ℕ) (h : n + 1 < cfg0.N) (h0 : ¬(n + 1) % 64 = 0) (p : Fin 512) :
    rowOf ⟨n, Nat.lt_of_succ_lt h⟩ p = rowOf ⟨n + 1, h⟩ p := by
  apply Fin.ext
  show 512 * (n / 64) + p.val = 512 * ((n + 1) / 64) + p.val
  have : n / 64 = (n + 1) / 64 := by omega
  rw [this]

/-- THE INVARIANT: after every point the buffer holds the accumulator described above. -/
theorem outsAt_apply (c : Dev nD) : ∀ (n : ℕ) (h : n < cfg0.N) (p : Fin 512) (q : Fin 4096),
    outsAt0 m c n h (ix2 p q) = accAfter m c ⟨n, h⟩ p q
  | 0, h, p, q => by
    have hA := congrFun ((outsAt0_A m c ⟨0, h⟩ rfl (show ¬(0 % 64 = 63) by decide)).trans (Cases.out_A ..)) (ix2 p q)
    refine hA.trans ?_
    rw [step_apply, Payload.pay2_apply]
    unfold accAfter
    rw [if_neg (show ¬(0 % 64 = 63) by decide)]
    exact (Cert.Mlp.headAcc_first _ (tileOf ⟨0, h⟩) rfl).symm
  | n + 1, h, p, q => by
    have hN : n + 1 < 1024 := lt_N ⟨n + 1, h⟩
    have ih := outsAt_apply c n (Nat.lt_of_succ_lt h) p q
    by_cases h0 : (n + 1) % 64 = 0
    · have h1 : ¬(n + 1) % 64 = 63 := by omega
      have hA := congrFun ((outsAt0_A m c ⟨n + 1, h⟩ h0 h1).trans (Cases.out_A ..)) (ix2 p q)
      refine hA.trans ?_
      rw [step_apply, Payload.pay2_apply]
      unfold accAfter
      rw [if_neg h1]
      exact (Cert.Mlp.headAcc_first _ (tileOf ⟨n + 1, h⟩) h0).symm
    · have hprev : outsAt0 m c n (Nat.lt_of_succ_lt h) (ix2 p q)
          = headAcc (terms m c (rowOf ⟨n + 1, h⟩ p) q) (n % 64 + 1) := by
        rw [ih]
        unfold accAfter
        rw [if_neg (show ¬n % 64 = 63 by omega), rowOf_succ n h h0 p]
      have hk : n % 64 + 1 = (tileOf ⟨n + 1, h⟩).val := by
        show n % 64 + 1 = (n + 1) % 64
        omega
      by_cases h1 : (n + 1) % 64 = 63
      · have hC := congrFun ((outsAt0_C m c ⟨n + 1, h⟩ h0 h1).trans (Cases.out_C ..)) (ix2 p q)
        refine hC.trans ?_
        rw [Payload.pay1_apply, step_apply, iblk4_apply]
        show outsAt0 m c n _ (ix2 p q) + _ + _ = _
        rw [hprev]
        unfold accAfter
        rw [if_pos h1]
        exact congrArg (· + V m c main_v5 (ix2 0 q))
          (Cert.Mlp.headAcc_last _ (tileOf ⟨n + 1, h⟩) _ hk (by show (n + 1) % 64 + 1 = 64; omega))
      · have hB := congrFun ((outsAt0_B m c ⟨n + 1, h⟩ h0 h1).trans (Cases.out_B ..)) (ix2 p q)
        refine hB.trans ?_
        rw [step_apply]
        show outsAt0 m c n _ (ix2 p q) + _ = _
        rw [hprev]
        unfold accAfter
        rw [if_neg h1]
        exact Cert.Mlp.headAcc_next _ (tileOf ⟨n + 1, h⟩) _ hk

/-- At the last tile of a row block the buffer holds the layer's value for its rows. -/
theorem outsAt_last (c : Dev nD) (t : Fin cfg0.N) (h63 : t.val % 64 = 63) (p : Fin 512) (q : Fin 4096) :
    outsAt0 m c t.val t.isLt (ix2 p q)
      = Cert.Mlp.out2 (V m c main_v1) (V m c main_v2) (V m c main_v4) (V m c main_v3) (V m c main_v5) (ix2 (rowOf t p) q) := by
  rw [outsAt_apply]
  unfold accAfter
  rw [if_pos h63]
  unfold terms
  rw [Cert.Mlp.headAcc_tiles]
  rfl

end Cert.KernelIdeal.Accum

end
-- ==== Proof.MlpBlocks.lean ====
/-
  The region's output array after the run is the flattened layer.

  The output array is written back one row block at a time, by the grid point of the block's last hidden tile
  (t % 64 = 63); what that point writes is out(512·(t/64) + p, q) at (p, q), and the sixteen row blocks are the
  whole [8192, 4096] array.
-/
import proofs.«113697_j76270029243058_2_alg».proof.Proof.MlpAccum

noncomputable section

namespace Cert.KernelIdeal.Result

open Cert.KernelIdeal Cert.KernelIdeal.Gen Idealize.ShloMosaic Idealize.ShloMosaic.TcCoe Idealize.SL.Sem
open Idealize.ShloMosaic.ValueIdx Cert.KernelIdeal.Entry
open Idealize.ShloMosaic.Pipeline (Dat)

variable (m : (ℓ : Loc nD τ sig) → Buf (Elt Ideal) ℓ) (ρ : Dev nD → PrngReg)

/-- The flattened layer over the operands as the region finds them. -/
abbrev flatOut (c : Dev nD) : Buf (Elt Ideal) ((c : Thread nD τ).loc main_v6) :=
  Cert.Mlp.out2 (V m c main_v1) (V m c main_v2) (V m c main_v4) (V m c main_v3) (V m c main_v5)

/-- The buffer after the last tile of a row block, at any index of the block. -/
theorem outsAt_last_idx (c : Dev nD) (t : Fin cfg0.N) (h63 : t.val % 64 = 63) (j : S512x4096.Idx) :
    outsAt0 m c t.val t.isLt j = flatOut m c (ix2 (rowOf t (j 0)) (j 1)) := by
  obtain ⟨p, q, rfl⟩ : ∃ (p : Fin 512) (q : Fin 4096), j = ix2 p q := ⟨j 0, j 1, eq_ix2 j⟩
  exact Accum.outsAt_last m c t h63 p q

/-- What a writing point writes back is its block of the flattened layer. -/
theorem flushed_eq (c : Dev nD) (t : Fin cfg0.N) (hf : (cfg0.win 5).flush t = true) :
    (dats m 0 c).flushed 5 t = ((cfg0.win 5).blk t).view.read (Elt Ideal) (flatOut m c) := by
  have h63 : t.val % 64 = 63 := (flush0_5 t).mp hf
  have hi := (idx_facts t).2.2.2.2.2
  show (cfg0.win 5).cut (grid0.coords t) ((dats m 0 c).after 5 t) = _
  rw [after0_5]
  funext j
  show outsAt0 m c t.val t.isLt j = flatOut m c (((cfg0.win 5).blk t).view.emb j)
  refine (outsAt_last_idx m c t h63 j).trans (congrArg (flatOut m c) ?_)
  funext a
  apply Fin.ext
  match a with
  | ⟨0, _⟩ => show 512 * (t.val / 64) + (j 0).val = win0_5.index t 0 * 512 + 1 * (j 0).val; rw [hi.1]; omega
  | ⟨1, _⟩ => show (j 1).val = win0_5.index t 1 * 4096 + 1 * (j 1).val; rw [hi.2]; omega

/-- An index of the output array is in point t's block iff each coordinate is in the block's range. -/
theorem mem_blk (t : Fin cfg0.N) (i : S8192x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v6).slice (win0_5.rect t)).set ↔ _
  rw [View.set_slice_whole, Rect.mem_set_unit]
  exact Iff.rfl

/-- Every index of the output array is in the block of the writing point of its row block. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 1024 := N_0
  let t : Fin cfg0.N := ⟨64 * ((i 0).val / 512) + 63, by rw [hN]; omega⟩
  have ht : t.val = 64 * ((i 0).val / 512) + 63 := rfl
  have hi := (idx_facts t).2.2.2.2.2
  refine ⟨t, (flush0_5 t).mpr (by rw [ht]; omega), ?_⟩
  rw [mem_blk]
  intro a
  match a with
  | ⟨0, _⟩ =>
    show win0_5.index t 0 * 512 ≤ (i 0).val ∧ (i 0).val < win0_5.index t 0 * 512 + 512
    rw [hi.1, ht]
    omega
  | ⟨1, _⟩ =>
    show win0_5.index t 1 * 4096 ≤ (i 1).val ∧ (i 1).val < win0_5.index t 1 * 4096 + 4096
    rw [hi.2]
    omega

/-- The output array after the region is the flattened layer. -/
theorem final (c : Dev nD) : (dats m 0 c).arrAt 5 cfg0.N = flatOut m c :=
  (dats m 0 c).arrAt_eq_of_cover 5 (flatOut m c) (flushed_eq m c) cover

end Cert.KernelIdeal.Result

end
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.MlpBridge.lean ====
/-
  The flattened layer is the layer: the host lines around the kernel region only re-lay its operands.

  The region computes out(r, d) over x flattened to [8192, 4096] (row r = 2048·b + s of batch b, position s),
  the weights narrowed (the identity on extended reals) and the biases viewed as one-row matrices; its
  [8192, 4096] result is viewed back as [4, 2048, 4096]. Read at (b, s, d) this is the layer over the
  arguments as given.
-/
import proofs.«113697_j76270029243058_2_alg».proof.Proof.MlpSpec
import proofs.«113697_j76270029243058_2_alg».proof.Proof.LibLayoutRead

noncomputable section

open scoped BigOperators

namespace Cert.Mlp

open Idealize.ShloMosaic Idealize.ShloMosaic.ValueIdx Idealize.ShloMosaic.LayoutRead

/-- A length-n vector viewed as one row reads the vector at the column. -/
theorem rowView_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

/-- Row 2048·b + s of the flattened input. -/
def flatRow (b : Fin 4) (s : Fin 2048) : Fin 8192 := ⟨b.val * 2048 + s.val, by have := b.isLt; have := s.isLt; omega⟩

/-- The region's result viewed back as [4, 2048, 4096], at (b, s, d): the layer over the arguments as given. -/
theorem out2_relaid (a0 : (⟨3, ![4, 2048, 4096]⟩ : Shape).Idx → EReal) (a1 : (⟨2, ![4096, 16384]⟩ : Shape).Idx → EReal)
    (a2 : (⟨1, ![16384]⟩ : Shape).Idx → EReal) (a3 : (⟨2, ![16384, 4096]⟩ : Shape).Idx → EReal)
    (a4 : (⟨1, ![4096]⟩ : Shape).Idx → EReal)
    (h0 : (⟨3, ![4, 2048, 4096]⟩ : Shape).ShapeCasts ⟨2, ![8192, 4096]⟩)
    (h2 : (⟨1, ![16384]⟩ : Shape).ShapeCasts ⟨2, ![1, 16384]⟩) (h4 : (⟨1, ![4096]⟩ : Shape).ShapeCasts ⟨2, ![1, 4096]⟩)
    (h6 : (⟨2, ![8192, 4096]⟩ : Shape).ShapeCasts ⟨3, ![4, 2048, 4096]⟩)
    (hb : FTy.bits .bf16 < FTy.bits .f32) :
    shapeCast ⟨3, ![4, 2048, 4096]⟩
      (out2 (truncf (F := Ideal) .bf16 (shapeCast ⟨2, ![8192, 4096]⟩ a0 h0) hb) (truncf (F := Ideal) .bf16 a1 hb)
        (shapeCast ⟨2, ![1, 16384]⟩ a2 h2) (truncf (F := Ideal) .bf16 a3 hb) (shapeCast ⟨2, ![1, 4096]⟩ a4 h4)) h6
      = out3 a0 a1 a2 a3 a4 := by
  funext i
  obtain ⟨b, s, d, rfl⟩ : ∃ (b : Fin 4) (s : Fin 2048) (d : Fin 4096), i = ix3 b s d := ⟨i 0, i 1, i 2, eq_ix3 i⟩
  rw [shapeCast_mc_abc_apply _ h6 b s d (flatRow b s) rfl]
  unfold out2 out3 pre
  show (∑ f : Fin 16384, gelu ((∑ k : Fin 4096, shapeCast ⟨2, ![8192, 4096]⟩ a0 h0 (ix2 (flatRow b s) k) * a1 (ix2 k f))
      + shapeCast ⟨2, ![1, 16384]⟩ a2 h2 (ix2 0 f)) * a3 (ix2 f d)) + shapeCast ⟨2, ![1, 4096]⟩ a4 h4 (ix2 0 d)
    = (∑ f : Fin 16384, gelu ((∑ k : Fin 4096, a0 (ix3 b s k) * a1 (ix2 k f)) + a2 (ix1 f)) * a3 (ix2 f d)) + a4 (ix1 d)
  rw [rowView_apply]
  refine congrArg (· + a4 (ix1 d)) (Finset.sum_congr rfl fun f _ => ?_)
  rw [rowView_apply]
  refine congrArg (fun z => gelu (z + a2 (ix1 f)) * a3 (ix2 f d)) (Finset.sum_congr rfl fun k _ => ?_)
  rw [shapeCast_abc_mc_apply a0 h0 b s k (flatRow b s) rfl]

end Cert.Mlp

end
-- ==== Proof.MlpValue.lean ====
/-
  The kernel program's result on the extended reals: every execution ends with the result array holding the layer
  over the arguments, and the arguments unchanged.

  After the region the output array holds the flattened layer over the operands the host lines prepared; the one
  host line after the region views it as [4, 2048, 4096], which is the layer over the arguments as given.
-/
import proofs.«113697_j76270029243058_2_alg».proof.Proof.MlpBlocks
import proofs.«113697_j76270029243058_2_alg».proof.Proof.MlpBridge

noncomputable section

namespace Cert.KernelIdeal.Result

open Cert.KernelIdeal Cert.KernelIdeal.Gen Idealize.ShloMosaic Idealize.ShloMosaic.TcCoe Idealize.SL.Sem
open Idealize.ShloMosaic.ValueIdx Cert.KernelIdeal.Entry
open Idealize.ShloMosaic.Pipeline (Dat)

variable (m : (ℓ : Loc nD τ sig) → Buf (Elt Ideal) ℓ) (ρ : Dev nD → PrngReg)

/-- The host line after the region leaves the result array at the flattened layer viewed as [4, 2048, 4096]. -/
theorem tail_result (c : Dev nD) :
    Pipeline.afterTail₀ cfgs (dats m) 0 (V0 m) [hostOps1] c main_v7
      = shapeCast S4x2048x4096 (flatOut m c) shapeCasts_S8192x4096_S4x2048x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = flatOut m c := (Pipeline.withArrays_arr spec0 launch0.win.arr_inj c _ _ 5).trans (final m c)
  rw [e]
  rfl

/-- The layer over the arguments as the program was launched with them. -/
abbrev result (c : Dev nD) : Buf (Elt Ideal) ((c : Thread nD τ).loc main_v7) :=
  Cert.Mlp.out3 (m ((c : Thread nD τ).loc main_arg0)) (m ((c : Thread nD τ).loc main_arg1)) (m ((c : Thread nD τ).loc main_arg2))
    (m ((c : Thread nD τ).loc main_arg3)) (m ((c : Thread nD τ).loc main_arg4))

/-- The flattened layer over the operands the host lines prepare, viewed back, is the layer over the arguments. -/
theorem relaid_eq (c : Dev nD) :
    shapeCast S4x2048x4096 (flatOut m c) shapeCasts_S8192x4096_S4x2048x4096 = result m c := by
  unfold flatOut
  rw [V_main_v1, V_main_v2, V_main_v3, V_main_v4, V_main_v5]
  exact Cert.Mlp.out2_relaid _ _ _ _ _ _ _ _ _ _

/-- THE RUN: every weakly fair execution terminates with the result array at the layer over the arguments and the
    arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans ((tail_result m c).trans (relaid_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.MlpRef.lean ====
/-
  The reference program's result on the extended reals, index by index: the layer over the arguments as given.

  Its operations, read at (b, s, d): the first product's entry (b, s, f) is Σ_k x(b, s, k) · w1(k, f); the bias is added; the
  activation chain — with the cube taken as (p · p) · p — is gelu of that; the second product's entry (b, s, d) is
  Σ_f h(b, s, f) · w2(f, d); the output bias is added.
-/
import proofs.«113697_j76270029243058_2_alg».proof.Proof.Gen.ReferenceIdeal.Read
import proofs.«113697_j76270029243058_2_alg».proof.Proof.MlpSpec

noncomputable section

open scoped BigOperators

namespace Cert.ReferenceIdeal.RefValue

open Cert.ReferenceIdeal Cert.ReferenceIdeal.Read Idealize.ShloMosaic Idealize.ShloMosaic.ValueIdx

theorem lidx17_eq (b : Fin 4) (s : Fin 2048) (d : Fin 4096) (f : Fin 16384) : lidx_main_v17 (ix3 b s d) f = ix3 b s f :=
  funext fun a => Fin.ext (by match a with | ⟨0, _⟩ => rfl | ⟨1, _⟩ => rfl | ⟨2, _⟩ => rfl)
theorem ridx17_eq (b : Fin 4) (s : Fin 2048) (d : Fin 4096) (f : Fin 16384) : ridx_main_v17 (ix3 b s d) f = ix2 f d :=
  funext fun a => Fin.ext (by match a with | ⟨0, _⟩ => rfl | ⟨1, _⟩ => rfl)
theorem lidx0_eq (b : Fin 4) (s : Fin 2048) (f : Fin 16384) (k : Fin 4096) : lidx_main_v0 (ix3 b s f) k = ix3 b s k :=
  funext fun a => Fin.ext (by match a with | ⟨0, _⟩ => rfl | ⟨1, _⟩ => rfl | ⟨2, _⟩ => rfl)
theorem ridx0_eq (b : Fin 4) (s : Fin 2048) (f : Fin 16384) (k : Fin 4096) : ridx_main_v0 (ix3 b s f) k = ix2 k f :=
  funext fun a => Fin.ext (by match a with | ⟨0, _⟩ => rfl | ⟨1, _⟩ => rfl)
theorem bias1_idx (b : Fin 4) (s : Fin 2048) (f : Fin 16384) : idx_main_v1 (idx_main_v2 (ix3 b s f)) = ix1 f :=
  funext fun a => Fin.ext (by match a with | ⟨0, _⟩ => rfl)
theorem bias2_idx (b : Fin 4) (s : Fin 2048) (d : Fin 4096) : idx_main_v18 (idx_main_v19 (ix3 b s d)) = ix1 d :=
  funext fun a => Fin.ext (by match a with | ⟨0, _⟩ => rfl)

/-- The pre-activation at (b, s, f). -/
theorem pre_apply (x0 : S4x2048x4096.Idx → EReal) (x1 : S4096x16384.Idx → EReal) (x2 : S16384.Idx → EReal)
    (b : Fin 4) (s : Fin 2048) (f : Fin 16384) :
    val_main_v3 (F := Ideal) x0 x1 x2 (ix3 b s f) = (∑ k : Fin 4096, x0 (ix3 b s k) * x1 (ix2 k f)) + x2 (ix1 f) := by
  rw [val_main_v3_apply, val_main_v0_apply, val_main_v2_apply, val_main_v1_apply, bias1_idx]
  simp only [lidx0_eq, ridx0_eq]
  rfl

/-- The activation chain at an index is gelu of the pre-activation there. -/
theorem act_apply (x0 : S4x2048x4096.Idx → EReal) (x1 : S4096x16384.Idx → EReal) (x2 : S16384.Idx → EReal)
    (j : S4x2048x16384.Idx) :
    val_main_v16 (F := Ideal) x0 x1 x2 j = Cert.Mlp.gelu (val_main_v3 (F := Ideal) x0 x1 x2 j) := by
  rw [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v8_apply, val_main_v7_apply, val_main_v6_apply, val_main_cst_apply,
    val_main_v5_apply, val_main_v4_apply]
  exact Cert.Mlp.gelu_cube_left _

/-- The reference's result is the layer over its arguments. -/
theorem result_eq (x0 : S4x2048x4096.Idx → EReal) (x1 : S4096x16384.Idx → EReal) (x2 : S16384.Idx → EReal)
    (x3 : S16384x4096.Idx → EReal) (x4 : S4096.Idx → EReal) :
    val_main_v20 (F := Ideal) x0 x1 x2 x3 x4 = Cert.Mlp.out3 x0 x1 x2 x3 x4 := by
  funext i
  obtain ⟨b, s, d, rfl⟩ : ∃ (b : Fin 4) (s : Fin 2048) (d : Fin 4096), i = ix3 b s d := ⟨i 0, i 1, i 2, eq_ix3 i⟩
  rw [val_main_v20_apply, val_main_v17_apply, val_main_v19_apply, val_main_v18_apply, bias2_idx]
  unfold Cert.Mlp.out3
  show (∑ f : Fin 16384, val_main_v16 (F := Ideal) x0 x1 x2 (lidx_main_v17 (ix3 b s d) f) * x3 (ridx_main_v17 (ix3 b s d) f)) + x4 (ix1 d) = _
  refine congrArg (· + x4 (ix1 d)) (Finset.sum_congr rfl fun f _ => ?_)
  rw [lidx17_eq, ridx17_eq, act_apply, pre_apply]

end Cert.ReferenceIdeal.RefValue

end
-- ==== Proof.lean ====
/-
  The fused two-layer perceptron kernel against its reference: out = gelu (x · w1 + b1) · w2 + b2 with the tanh
  approximation of gelu, x of shape [4, 2048, 4096], 16384 hidden columns.

  The kernel flattens x to 8192 rows and walks a 16 × 64 grid: row block i (512 rows) and hidden tile j (256
  columns). At (i, j) it forms the 512 × 256 tile of gelu (x · w1 + b1) and adds its product with the matching 256
  rows of w2 into the row block's accumulator, which starts at zero at j = 0 and receives b2 after j = 63; the
  accumulator is written back once per row block. On the extended reals a change of float format is the identity,
  a product into a zero accumulator is the plain sum of products, and + is commutative and associative, so the
  accumulator after the 64 tiles is the sum over all 16384 hidden columns: the kernel's result is the layer over
  the arguments, entry by entry. The reference computes the same layer with two whole products (its cube is
  (p · p) · p where the kernel's is p · (p · p): multiplication commutes). No entry needs to be finite.

  The three frames: the kernel programs' are the generated ones; the reference's is its run with the result
  dropped. The ideal pass rewrote nothing, so the preservation claim is trivial.
-/
import proofs.«113697_j76270029243058_2_alg».proof.Defs
import proofs.«113697_j76270029243058_2_alg».proof.Proof.Gen.Kernel
import proofs.«113697_j76270029243058_2_alg».proof.Proof.Gen.Kernel.Skeleton
import proofs.«113697_j76270029243058_2_alg».proof.Proof.Gen.Kernel.Launch
import proofs.«113697_j76270029243058_2_alg».proof.Proof.Gen.Kernel.Points
import proofs.«113697_j76270029243058_2_alg».proof.Proof.Gen.Kernel.Frame
import proofs.«113697_j76270029243058_2_alg».proof.Proof.Gen.KernelIdeal
import proofs.«113697_j76270029243058_2_alg».proof.Proof.Gen.KernelIdeal.Skeleton
import proofs.«113697_j76270029243058_2_alg».proof.Proof.Gen.KernelIdeal.Launch
import proofs.«113697_j76270029243058_2_alg».proof.Proof.Gen.KernelIdeal.Points
import proofs.«113697_j76270029243058_2_alg».proof.Proof.Gen.KernelIdeal.Frame
import proofs.«113697_j76270029243058_2_alg».proof.Proof.Gen.ReferenceIdeal
import proofs.«113697_j76270029243058_2_alg».proof.Proof.Gen.ReferenceIdeal.Read
import proofs.«113697_j76270029243058_2_alg».proof.Proof.Gen.Pre_finite_inputs
import proofs.«113697_j76270029243058_2_alg».proof.Proof.MlpValue
import proofs.«113697_j76270029243058_2_alg».proof.Proof.MlpRef
import Idealize.ShloMosaic.Adequacy
import Idealize.ShloMosaic.Init

noncomputable section

namespace Cert.Proof

open Idealize.ShloMosaic Idealize.SL.Sem Cert.Kernel

/-- Both idealized programs end at the layer over the arguments: the kernel's run and the reference's run, read at
    arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
